-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S256x64 : Shape := ⟨2, ![256, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg9 : FVec F S256x64 .f32) (main_arg10 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S128x256 .f32) (main_arg8 : FVec F S256 .f32) (main_arg9 : FVec F S256x64 .f32) (main_arg10 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x1600000 32) (main_arg2 : IVec S2x500000 32) (main_arg3 : FVec F S128x128 .f32) (main_arg4 : FVec F S128 .f32) (main_arg5 : FVec F S128x64 .f32) (main_arg6 : FVec F S64 .f32) (main_arg7 : FVec F S128x256 .f32) (main_arg8 : FVec F S256 .f32) (main_arg9 : FVec F S256x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S256x64 : Shape := ⟨2, ![256, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x128 : Shape := ⟨2, ![5000, 128]⟩
abbrev S5000x64 : Shape := ⟨2, ![5000, 64]⟩
abbrev S5000x256 : Shape := ⟨2, ![5000, 256]⟩
abbrev S1x256 : Shape := ⟨2, ![1, 256]⟩
abbrev S1x64 : Shape := ⟨2, ![1, 64]⟩
abbrev S1650000x128 : Shape := ⟨2, ![1650000, 128]⟩
abbrev S1x128 : Shape := ⟨2, ![1, 128]⟩
abbrev S1650000x64 : Shape := ⟨2, ![1650000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 112
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x500000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x128, .f32⟩
  | .hbm, ⟨52, _⟩ => ⟨S50000x64, .f32⟩
  | .hbm, ⟨53, _⟩ => ⟨S1650000x1, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000x128, .f32⟩
  | .hbm, ⟨63, _⟩ => ⟨S1650000x128, .f32⟩
  | .hbm, ⟨64, _⟩ => ⟨S1650000x128, .f32⟩
  | .hbm, ⟨65, _⟩ => ⟨S_, .f32⟩
  | .hbm, ⟨66, _⟩ => ⟨S50000x128, .f32⟩
  | .hbm, ⟨67, _⟩ => ⟨S1650000x1, .i32⟩
  | .hbm, ⟨68, _⟩ => ⟨S50000x128, .f32⟩
  | .hbm, ⟨69, _⟩ => ⟨S50000x64, .f32⟩
  | .hbm, ⟨70, _⟩ => ⟨S1650000x1, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x64, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S50000x64, .f32⟩
  | .hbm, ⟨87, _⟩ => ⟨S1x500000, .i32⟩
  | .hbm, ⟨88, _⟩ => ⟨S500000, .i32⟩
  | .hbm, ⟨89, _⟩ => ⟨S_, .i32⟩
  | .hbm, ⟨90, _⟩ => ⟨S500000, .i32⟩
  | .hbm, ⟨91, _⟩ => ⟨S500000, .i1⟩
  | .hbm, ⟨92, _⟩ => ⟨S_, .i32⟩
  | .hbm, ⟨93, _⟩ => ⟨S500000, .i32⟩
  | .hbm, ⟨94, _⟩ => ⟨S500000, .i32⟩
  | .hbm, ⟨95, _⟩ => ⟨S500000, .i32⟩
  | .hbm, ⟨96, _⟩ => ⟨S500000x1, .i32⟩
  | .hbm, ⟨97, _⟩ => ⟨S500000x64, .f32⟩
  | .hbm, ⟨98, _⟩ => ⟨S1x500000, .i32⟩
  | .hbm, ⟨99, _⟩ => ⟨S500000, .i32⟩
  | .hbm, ⟨100, _⟩ => ⟨S_, .i32⟩
  | .hbm, ⟨101, _⟩ => ⟨S500000, .i32⟩
  | .hbm, ⟨102, _⟩ => ⟨S500000, .i1⟩
  | .hbm, ⟨103, _⟩ => ⟨S_, .i32⟩
  | .hbm, ⟨104, _⟩ => ⟨S500000, .i32⟩
  | .hbm, ⟨105, _⟩ => ⟨S500000, .i32⟩
  | .hbm, ⟨106, _⟩ => ⟨S500000, .i32⟩
  | .hbm, ⟨107, _⟩ => ⟨S500000x1, .i32⟩
  | .hbm, ⟨108, _⟩ => ⟨S500000x64, .f32⟩
  | .hbm, ⟨109, _⟩ => ⟨S500000x64, .f32⟩
  | .hbm, ⟨110, _⟩ => ⟨S_, .f32⟩
  | .hbm, ⟨111, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x256, .f32⟩
  | .local _ .vmem, ⟨4, _⟩ => ⟨S256, .f32⟩
  | .local _ .vmem, ⟨5, _⟩ => ⟨S256x64, .f32⟩
  | .local _ .vmem, ⟨6, _⟩ => ⟨S64, .f32⟩
  | .local _ .vmem, ⟨7, _⟩ => ⟨S5000x128, .f32⟩
  | .local _ .vmem, ⟨8, _⟩ => ⟨S5000x128, .f32⟩
  | .local _ .vmem, ⟨9, _⟩ => ⟨S5000x64, .f32⟩
  | .local _ .vmem, ⟨10, _⟩ => ⟨S5000x64, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S5000x64_S5000x64 : S5000x64.ShapeCasts S5000x64
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  gather_S50000x64_S500000x1_S500000x64_1_0_n_n_0_1_164_wf : GatherDims.WF S50000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S256x64 : Shape := ⟨2, ![256, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x256 : Shape := ⟨2, ![50000, 256]⟩
abbrev S1x256 : Shape := ⟨2, ![1, 256]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x1600000, .i32⟩
  | 2 => ⟨S2x500000, .i32⟩
  | 3 => ⟨S128x128, .f32⟩
  | 4 => ⟨S128, .f32⟩
  | 5 => ⟨S128x64, .f32⟩
  | 6 => ⟨S64, .f32⟩
  | 7 => ⟨S128x256, .f32⟩
  | 8 => ⟨S256, .f32⟩
  | 9 => ⟨S256x64, .f32⟩
  | 10 => ⟨S64, .f32⟩
  | 11 => ⟨S50000, .i32⟩
  | 12 => ⟨S1x1600000, .i32⟩
  | 13 => ⟨S1600000, .i32⟩
  | 14 => ⟨S1650000, .i32⟩
  | 15 => ⟨S1x1600000, .i32⟩
  | 16 => ⟨S1600000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x128, .f32⟩
  | 52 => ⟨S1650000x1, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x128, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S1650000x1, .f32⟩
  | 76 => ⟨S_, .i32⟩
  | 77 => ⟨S1650000, .i32⟩
  | 78 => ⟨S1650000, .i1⟩
  | 79 => ⟨S_, .i32⟩
  | 80 => ⟨S1650000, .i32⟩
  | 81 => ⟨S1650000, .i32⟩
  | 82 => ⟨S1650000, .i32⟩
  | 83 => ⟨S1650000x1, .i32⟩
  | 84 => ⟨S1650000x64, .f32⟩
  | 85 => ⟨S1650000x64, .f32⟩
  | 86 => ⟨S1650000x64, .f32⟩
  | 87 => ⟨S_, .f32⟩
  | 88 => ⟨S50000x64, .f32⟩
  | 89 => ⟨S1650000x1, .i32⟩
  | 90 => ⟨S50000x64, .f32⟩
  | 91 => ⟨S1x64, .f32⟩
  | 92 => ⟨S50000x64, .f32⟩
  | 93 => ⟨S50000x64, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x64, .f32⟩
  | 123 => ⟨S1x500000, .i32⟩
  | 124 => ⟨S500000, .i32⟩
  | 125 => ⟨S_, .i32⟩
  | 126 => ⟨S500000, .i32⟩
  | 127 => ⟨S500000, .i1⟩
  | _ => ⟨S50000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x64, .f32⟩
  | 6 => ⟨S500000x64, .f32⟩
  | 7 => ⟨S_, .f32⟩
  | 8 => ⟨S500000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_c_17 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_18 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []
  gather_S50000x64_S500000x1_S500000x64_1_0_n_n_0_1_164_wf : GatherDims.WF S50000x64 S500000x1 S500000x64 [1] [0] [] [0] [] 1 ![1, 64]

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

class Facts : Prop extends Facts₀ where

variable [Facts]
-- ==== Proof.WholeRun.lean ====
/-
  The idealized kernel program's run, read at its result buffer.

  @main is a sequence of stretches of host operations and three row-tiled regions. Running it from a launch
  memory walks the buffer contents through a fold: a stretch replaces them by its operations' results, a
  region replaces its output arrays by what its write-backs leave and keeps every other buffer. Every
  weakly fair execution terminates with every unscoped buffer at the end of that fold. Here the post is read
  at the buffer of the returned value and at the eleven arguments: the former is the fold's last contents at
  that buffer, the latter are the launch contents (no stretch and no region writes an argument).
-/
import proofs.«153928_j65180423684766_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the returned buffer at the last
    contents of the fold and the arguments as launched. -/
theorem run_result : θ_run defs (onTc (τ := τ) (main (F := F))) ⟨m, fun _ => 0, ρ⟩ (fun r => ∀ c : Dev nD,
      r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Whole

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.Entries.lean ====
/-
  The dense stages of the network, entry by entry over the extended reals.

  The network's dense stages are: the product x·W₁; the two-layer branch relu(x·Wf₁ + bf₁)·Wf₂ + bf₂; the
  second transform relu(a + b₁)·W₂ of an aggregated array a; and the combination (a + b₂)·½ + f·½. Every one
  of them is ROW-LOCAL: row r of the result is a function of row r of its row-indexed operands (and of the
  whole weights and biases). The formulas below name that function of a row. A block of 5000 consecutive
  rows, computed alone by the matrix unit's product into a zero accumulator, the vector unit's additions,
  maxima and products, therefore has the same entries as those rows of the whole array computed by the host's
  general products and broadcasts: both are the row formula, evaluated at the same row. A change of float
  format is the identity on extended reals, so the casts to the narrow format inside the block computation
  do not appear.
-/
import proofs.«153928_j65180423684766_2_alg».proof.Proof.Gen.KernelIdeal
import proofs.«153928_j65180423684766_2_alg».proof.Proof.Gen.KernelIdeal.Skeleton
import proofs.«153928_j65180423684766_2_alg».proof.Proof.Gen.ReferenceIdeal
import proofs.«153928_j65180423684766_2_alg».proof.Proof.LibProduct
import proofs.«153928_j65180423684766_2_alg».proof.Proof.LibRowVector

noncomputable section

namespace Cert.Dense

open Idealize.ShloMosaic Idealize.ShloMosaic.ValueIdx

/-! ## The row formulas -/

/-- The float word of zero, as an extended real. -/
abbrev zeroWord : EReal := Ideal.ofBits .f32 0x00000000#32
/-- The float word of one half, as an extended real. -/
abbrev halfWord : EReal := Ideal.ofBits .f32 0x3F000000#32

/-- Entry q of a row times a matrix. -/
def prodEntry {K N : ℕ} (row : Fin K → EReal) (w : (⟨2, ![K, N]⟩ : Shape).Idx → EReal) (q : Fin N) : EReal :=
  ∑ c : Fin K, row c * w (ix2 c q)

/-- Entry q of relu(row·Wf₁ + bf₁)·Wf₂ + bf₂. -/
def branchEntry (row : Fin 128 → EReal) (wf1 : (⟨2, ![128, 256]⟩ : Shape).Idx → EReal) (bf1 : (⟨1, ![256]⟩ : Shape).Idx → EReal)
    (wf2 : (⟨2, ![256, 64]⟩ : Shape).Idx → EReal) (bf2 : (⟨1, ![64]⟩ : Shape).Idx → EReal) (q : Fin 64) : EReal :=
  prodEntry (fun c2 : Fin 256 => max (prodEntry row wf1 c2 + bf1 (ix1 c2)) zeroWord) wf2 q + bf2 (ix1 q)

/-- Entry q of relu(row + b₁)·W₂. -/
def secondEntry (row : Fin 128 → EReal) (b1 : (⟨1, ![128]⟩ : Shape).Idx → EReal)
    (w2 : (⟨2, ![128, 64]⟩ : Shape).Idx → EReal) (q : Fin 64) : EReal :=
  prodEntry (fun k : Fin 128 => max (row k + b1 (ix1 k)) zeroWord) w2 q

/-- (a + b)·½ + f·½. -/
def mixEntry (a b f : EReal) : EReal := (a + b) * halfWord + f * halfWord

/-! ## The host's spelling of the four stages, on whole arrays -/

section Host

open Cert.ReferenceIdeal Cert.ReferenceIdeal.Facts₀

/-- x·W₁ on the whole node array. -/
def first (x : FVec Ideal S50000x128 .f32) (w1 : FVec Ideal S128x128 .f32) : FVec Ideal S50000x128 .f32 :=
  Host.dotGeneral (F := Ideal) dot_S50000x128_S128x128_S50000x128_1_0_0_1_n_n none x w1

/-- relu(x·Wf₁ + bf₁)·Wf₂ + bf₂ on the whole node array. -/
def branch (x : FVec Ideal S50000x128 .f32) (wf1 : FVec Ideal S128x256 .f32) (bf1 : FVec Ideal S256 .f32)
    (wf2 : FVec Ideal S256x64 .f32) (bf2 : FVec Ideal S64 .f32) : FVec Ideal S50000x64 .f32 :=
  addf (Host.dotGeneral (F := Ideal) dot_S50000x256_S256x64_S50000x64_1_0_0_1_n_n none
      (maximumf (addf (Host.dotGeneral (F := Ideal) dot_S50000x128_S128x256_S50000x256_1_0_0_1_n_n none x wf1)
          (broadcastInDim S50000x256 ![0, 1] bcast_S1x256_S50000x256_0_1 (broadcastInDim S1x256 ![1] bcast_S256_S1x256_1 bf1)))
        (broadcastInDim S50000x256 ![] bcast_S_S50000x256 (constant (F := Ideal) S_ .f32 0x00000000#32))) wf2)
    (broadcastInDim S50000x64 ![0, 1] bcast_S1x64_S50000x64_0_1 (broadcastInDim S1x64 ![1] bcast_S64_S1x64_1 bf2))

/-- relu(a + b₁)·W₂ on the whole node array. -/
def second (a : FVec Ideal S50000x128 .f32) (b1 : FVec Ideal S128 .f32) (w2 : FVec Ideal S128x64 .f32) : FVec Ideal S50000x64 .f32 :=
  Host.dotGeneral (F := Ideal) dot_S50000x128_S128x64_S50000x64_1_0_0_1_n_n none
    (maximumf (addf a (broadcastInDim S50000x128 ![0, 1] bcast_S1x128_S50000x128_0_1 (broadcastInDim S1x128 ![1] bcast_S128_S1x128_1 b1)))
      (broadcastInDim S50000x128 ![] bcast_S_S50000x128 (constant (F := Ideal) S_ .f32 0x00000000#32))) w2

/-- (a + b₂)·½ + f·½ on the whole node array. -/
def mix (a : FVec Ideal S50000x64 .f32) (b2 : FVec Ideal S64 .f32) (f : FVec Ideal S50000x64 .f32) : FVec Ideal S50000x64 .f32 :=
  addf (mulf (addf a (broadcastInDim S50000x64 ![0, 1] bcast_S1x64_S50000x64_0_1 (broadcastInDim S1x64 ![1] bcast_S64_S1x64_1 b2)))
      (broadcastInDim S50000x64 ![] bcast_S_S50000x64 (constant (F := Ideal) S_ .f32 0x3F000000#32)))
    (mulf f (broadcastInDim S50000x64 ![] bcast_S_S50000x64 (constant (F := Ideal) S_ .f32 0x3F000000#32)))

theorem first_apply (x : FVec Ideal S50000x128 .f32) (w1 : FVec Ideal S128x128 .f32) (r : Fin 50000) (q : Fin 128) :
    first x w1 (ix2 r q) = prodEntry (fun c => x (ix2 r c)) w1 q := by
  unfold first prodEntry
  exact LibProduct.dotGeneral_apply _ rfl rfl rfl rfl rfl rfl none x w1 r q

theorem branch_apply (x : FVec Ideal S50000x128 .f32) (wf1 : FVec Ideal S128x256 .f32) (bf1 : FVec Ideal S256 .f32)
    (wf2 : FVec Ideal S256x64 .f32) (bf2 : FVec Ideal S64 .f32) (r : Fin 50000) (q : Fin 64) :
    branch x wf1 bf1 wf2 bf2 (ix2 r q) = branchEntry (fun c => x (ix2 r c)) wf1 bf1 wf2 bf2 q := by
  unfold branch branchEntry
  rw [addf_apply, LibRowVector.inDimRow_apply]
  refine congrArg (· + bf2 (ix1 q)) ?_
  refine (LibProduct.dotGeneral_apply _ rfl rfl rfl rfl rfl rfl none _ wf2 r q).trans ?_
  unfold prodEntry
  refine Finset.sum_congr rfl fun c2 _ => congrArg (· * wf2 (ix2 c2 q)) ?_
  rw [maximumf_apply, addf_apply, LibRowVector.inDimRow_apply, LibRowVector.inDimScalar_apply]
  refine congrArg (fun u => max (u + bf1 (ix1 c2)) zeroWord) ?_
  exact LibProduct.dotGeneral_apply _ rfl rfl rfl rfl rfl rfl none x wf1 r c2

theorem second_apply (a : FVec Ideal S50000x128 .f32) (b1 : FVec Ideal S128 .f32) (w2 : FVec Ideal S128x64 .f32)
    (r : Fin 50000) (q : Fin 64) :
    second a b1 w2 (ix2 r q) = secondEntry (fun k => a (ix2 r k)) b1 w2 q := by
  unfold second secondEntry
  refine (LibProduct.dotGeneral_apply _ rfl rfl rfl rfl rfl rfl none _ w2 r q).trans ?_
  unfold prodEntry
  refine Finset.sum_congr rfl fun k _ => congrArg (· * w2 (ix2 k q)) ?_
  rw [maximumf_apply, addf_apply, LibRowVector.inDimRow_apply, LibRowVector.inDimScalar_apply]
  rfl

theorem mix_apply (a : FVec Ideal S50000x64 .f32) (b2 : FVec Ideal S64 .f32) (f : FVec Ideal S50000x64 .f32)
    (r : Fin 50000) (q : Fin 64) :
    mix a b2 f (ix2 r q) = mixEntry (a (ix2 r q)) (b2 (ix1 q)) (f (ix2 r q)) := by
  unfold mix mixEntry
  rw [addf_apply, mulf_apply, mulf_apply, addf_apply, LibRowVector.inDimRow_apply, LibRowVector.inDimScalar_apply]
  rfl

end Host

/-! ## The blocks' spelling: what the three bodies store, at an entry of a block of 5000 rows -/

section Blocks

open Cert.KernelIdeal Cert.KernelIdeal.Gen Cert.KernelIdeal.Facts₀

theorem block_first_apply (xb : Vec Ideal S5000x128 .f32) (w1 : Vec Ideal S128x128 .f32) (p : Fin 5000) (q : Fin 128) :
    k0_pay2 (F := Ideal) xb w1 (ix2 p q) = prodEntry (fun c => xb (ix2 p c)) w1 q := by
  unfold k0_pay2 k0_pay1 prodEntry
  exact LibProduct.matmul_zero_apply _ rfl rfl rfl rfl rfl rfl none _ _ p q

theorem block_branch_apply (xb : Vec Ideal S5000x128 .f32) (wf1 : Vec Ideal S128x256 .f32) (bf1 : Vec Ideal S256 .f32)
    (wf2 : Vec Ideal S256x64 .f32) (bf2 : Vec Ideal S64 .f32) (p : Fin 5000) (q : Fin 64) :
    k0_pay3 (F := Ideal) xb wf1 bf1 wf2 bf2 (ix2 p q) = branchEntry (fun c => xb (ix2 p c)) wf1 bf1 wf2 bf2 q := by
  unfold k0_pay3 k0_pay1 branchEntry
  rw [addf_apply, LibRowVector.castRow_apply]
  refine congrArg (· + bf2 (ix1 q)) ?_
  refine (LibProduct.matmul_zero_apply _ rfl rfl rfl rfl rfl rfl none _ _ p q).trans ?_
  unfold prodEntry
  refine Finset.sum_congr rfl fun c2 _ => congrArg (· * wf2 (ix2 c2 q)) ?_
  rw [truncf_apply, maximumf_apply, addf_apply, LibRowVector.castRow_apply, broadcast_apply]
  refine congrArg (fun u => max (u + bf1 (ix1 c2)) zeroWord) ?_
  exact LibProduct.matmul_zero_apply _ rfl rfl rfl rfl rfl rfl none _ _ p c2

theorem block_second_apply (ab : Vec Ideal S5000x128 .f32) (b1 : Vec Ideal S128 .f32) (w2 : Vec Ideal S128x64 .f32)
    (p : Fin 5000) (q : Fin 64) :
    k1_pay1 (F := Ideal) ab b1 w2 (ix2 p q) = secondEntry (fun k => ab (ix2 p k)) b1 w2 q := by
  unfold k1_pay1 secondEntry
  refine (LibProduct.matmul_zero_apply _ rfl rfl rfl rfl rfl rfl none _ _ p q).trans ?_
  unfold prodEntry
  refine Finset.sum_congr rfl fun k _ => congrArg (· * w2 (ix2 k q)) ?_
  rw [truncf_apply, maximumf_apply, addf_apply, shapeCast_self, LibRowVector.castRow_apply, broadcast_apply]
  rfl

theorem block_mix_apply (ab : Vec Ideal S5000x64 .f32) (b2 : Vec Ideal S64 .f32) (fb : Vec Ideal S5000x64 .f32)
    (p : Fin 5000) (q : Fin 64) :
    k2_pay1 (F := Ideal) ab b2 fb (ix2 p q) = mixEntry (ab (ix2 p q)) (b2 (ix1 q)) (fb (ix2 p q)) := by
  unfold k2_pay1 mixEntry
  rw [addf_apply, mulf_apply, mulf_apply, addf_apply, shapeCast_self, shapeCast_self, LibRowVector.castRow_apply]
  rfl

end Blocks

end Cert.Dense

end
-- ==== Proof.Region0.lean ====
/-
  Region 0, from blocks to arrays: the first transform and the fully connected branch on the whole node array.

  The region visits ten grid points; point t reads rows 5000·t … 5000·t + 4999 of the node features x (all 128
  columns), the whole of each weight matrix and bias vector, and writes back the same rows of its two outputs.
  By row locality (the entries module) what point t writes back is those rows of x·W₁ and of
  relu(x·Wf₁ + bf₁)·Wf₂ + bf₂ computed on the WHOLE array. Row r lies in the block of point r / 5000, so the ten
  blocks cover each output, and each output array ends holding the whole-array stage of the arrays the region
  found at entry.
-/
import proofs.«153928_j65180423684766_2_alg».proof.Proof.Gen.KernelIdeal.Frame
import proofs.«153928_j65180423684766_2_alg».proof.Proof.Entries
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-tiled windows sit at block (t, 0), the weights and biases at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of point t's block of x is row 5000·t + p of x. -/
theorem x_block (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' and biases' blocks are the whole arrays. -/
theorem w1_block (c : Dev nD) (t : Fin cfg0.N) : (iblk0 V c 1 t : Vec Ideal S128x128 .f32) = (V c main_arg3 : S128x128.Idx → EReal) := by
  obtain ⟨-, -, e0, e1, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem wf1_block (c : Dev nD) (t : Fin cfg0.N) : (iblk0 V c 2 t : Vec Ideal S128x256 .f32) = (V c main_arg7 : S128x256.Idx → EReal) := by
  obtain ⟨-, -, -, -, e0, e1, -⟩ := idx_facts t
  funext y
  show V c main_arg7 (((cfg0.win 2).blk t).view.emb y) = V c main_arg7 y
  refine congrArg (V c main_arg7) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem bf1_block (c : Dev nD) (t : Fin cfg0.N) : (iblk0 V c 3 t : Vec Ideal S256 .f32) = (V c main_arg8 : S256.Idx → EReal) := by
  obtain ⟨-, -, -, -, -, -, e0, -⟩ := idx_facts t
  funext y
  show V c main_arg8 (((cfg0.win 3).blk t).view.emb y) = V c main_arg8 y
  refine congrArg (V c main_arg8) (funext fun a => Fin.ext ?_)
  match a with
  | ⟨0, _⟩ => show win0_3.index t (0 : Fin 1) * 256 + 1 * (y 0).val = (y 0).val; omega

theorem wf2_block (c : Dev nD) (t : Fin cfg0.N) : (iblk0 V c 4 t : Vec Ideal S256x64 .f32) = (V c main_arg9 : S256x64.Idx → EReal) := by
  obtain ⟨-, -, -, -, -, -, -, e0, e1, -⟩ := idx_facts t
  funext y
  show V c main_arg9 (((cfg0.win 4).blk t).view.emb y) = V c main_arg9 y
  refine congrArg (V c main_arg9) (funext fun a => Fin.ext ?_)
  match a with
  | ⟨0, _⟩ => show win0_4.index t (0 : Fin 2) * 256 + 1 * (y 0).val = (y 0).val; omega
  | ⟨1, _⟩ => show win0_4.index t (1 : Fin 2) * 64 + 1 * (y 1).val = (y 1).val; omega

theorem bf2_block (c : Dev nD) (t : Fin cfg0.N) : (iblk0 V c 5 t : Vec Ideal S64 .f32) = (V c main_arg10 : S64.Idx → EReal) := by
  obtain ⟨-, -, -, -, -, -, -, -, -, e0, -⟩ := idx_facts t
  funext y
  show V c main_arg10 (((cfg0.win 5).blk t).view.emb y) = V c main_arg10 y
  refine congrArg (V c main_arg10) (funext fun a => Fin.ext ?_)
  match a with
  | ⟨0, _⟩ => show win0_5.index t (0 : Fin 1) * 64 + 1 * (y 0).val = (y 0).val; omega

/-! ## Output window 6: x·W₁ -/

/-- What point t writes back to the first output is block t of x·W₁ on the whole array. -/
theorem flushed6_eq (c : Dev nD) (t : Fin cfg0.N) :
    (dat0 V c).flushed 6 t = ((cfg0.win 6).blk t).view.read (Elt Ideal) (Dense.first (V c main_arg0) (V c main_arg3)) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2]
  rw [w1_block V c t]
  have ht : t.val < 10 := by have hN : cfg0.N = 10 := N_0; have := t.isLt; omega
  obtain ⟨-, -, -, -, -, -, -, -, -, -, e0, e1, -⟩ := idx_facts t
  funext j
  obtain ⟨p, q, rfl⟩ : ∃ (p : Fin 5000) (q : Fin 128), j = ix2 p q := ⟨j 0, j 1, eq_ix2 j⟩
  have he : ((cfg0.win 6).blk t).view.emb (ix2 p q) = ix2 (⟨t.val * 5000 + p.val, by have := p.isLt; omega⟩ : Fin 50000) q :=
    funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  show k0_pay2 (F := Ideal) (iblk0 V c 0 t) (V c main_arg3) (ix2 p q)
    = Dense.first (V c main_arg0) (V c main_arg3) (((cfg0.win 6).blk t).view.emb (ix2 p q))
  rw [he, Dense.block_first_apply, Dense.first_apply]
  exact congrArg (fun row => Dense.prodEntry row (V c main_arg3) q) (funext fun k => x_block V c t p k _ rfl)

theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v30_0).slice (win0_6.rect t)).set ↔ _
  rw [View.set_slice_whole, Rect.mem_set_unit]
  exact Iff.rfl

/-- The first output ends holding x·W₁ of the arrays found at entry. -/
theorem final6 (c : Dev nD) : (dat0 V c).arrAt 6 cfg0.N = Dense.first (V c main_arg0) (V c main_arg3) :=
  (dat0 V c).arrAt_eq_of_cover 6 _ (fun t _ => flushed6_eq V c t) fun i => by
    have hN : cfg0.N = 10 := N_0
    have h0 : (i 0).val < 50000 := (i 0).isLt
    have h1 : (i 1).val < 128 := (i 1).isLt
    refine ⟨⟨(i 0).val / 5000, by omega⟩, flush0_6 _, ?_⟩
    obtain ⟨-, -, -, -, -, -, -, -, -, -, e0, e1, -⟩ := idx_facts ⟨(i 0).val / 5000, by omega⟩
    rw [mem_blk6]
    intro a
    match a with
    | ⟨0, _⟩ =>
      show win0_6.index ⟨(i 0).val / 5000, _⟩ (0 : Fin 2) * 5000 ≤ (i 0).val ∧ (i 0).val < win0_6.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_6.index ⟨(i 0).val / 5000, _⟩ (1 : Fin 2) * 128 ≤ (i 1).val ∧ (i 1).val < win0_6.index ⟨(i 0).val / 5000, _⟩ (1 : Fin 2) * 128 + 128
      rw [e1]; omega

/-! ## Output window 7: relu(x·Wf₁ + bf₁)·Wf₂ + bf₂ -/

theorem flushed7_eq (c : Dev nD) (t : Fin cfg0.N) :
    (dat0 V c).flushed 7 t = ((cfg0.win 7).blk t).view.read (Elt Ideal)
      (Dense.branch (V c main_arg0) (V c main_arg7) (V c main_arg8) (V c main_arg9) (V c main_arg10)) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S128x256) hz2, View.ld_unit_zero (S := S256x64) hz2,
    View.ld_unit_zero (S := S256) hz1, View.ld_unit_zero (S := S64) hz1]
  rw [wf1_block V c t, bf1_block V c t, wf2_block V c t, bf2_block V c t]
  have ht : t.val < 10 := by have hN : cfg0.N = 10 := N_0; have := t.isLt; omega
  obtain ⟨-, -, -, -, -, -, -, -, -, -, -, -, e0, e1⟩ := idx_facts t
  funext j
  obtain ⟨p, q, rfl⟩ : ∃ (p : Fin 5000) (q : Fin 64), j = ix2 p q := ⟨j 0, j 1, eq_ix2 j⟩
  have he : ((cfg0.win 7).blk t).view.emb (ix2 p q) = ix2 (⟨t.val * 5000 + p.val, by have := p.isLt; omega⟩ : Fin 50000) q :=
    funext fun a => Fin.ext (by
      match a with
      | ⟨0, _⟩ => show win0_7.index t (0 : Fin 2) * 5000 + 1 * p.val = t.val * 5000 + p.val; omega
      | ⟨1, _⟩ => show win0_7.index t (1 : Fin 2) * 64 + 1 * q.val = q.val; omega)
  show k0_pay3 (F := Ideal) (iblk0 V c 0 t) (V c main_arg7) (V c main_arg8) (V c main_arg9) (V c main_arg10) (ix2 p q)
    = Dense.branch (V c main_arg0) (V c main_arg7) (V c main_arg8) (V c main_arg9) (V c main_arg10) (((cfg0.win 7).blk t).view.emb (ix2 p q))
  rw [he, Dense.block_branch_apply, Dense.branch_apply]
  exact congrArg (fun row => Dense.branchEntry row (V c main_arg7) (V c main_arg8) (V c main_arg9) (V c main_arg10) q)
    (funext fun k => x_block V c t p k _ rfl)

theorem mem_blk7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v30_1).slice (win0_7.rect t)).set ↔ _
  rw [View.set_slice_whole, Rect.mem_set_unit]
  exact Iff.rfl

/-- The second output ends holding the branch of the arrays found at entry. -/
theorem final7 (c : Dev nD) : (dat0 V c).arrAt 7 cfg0.N
    = Dense.branch (V c main_arg0) (V c main_arg7) (V c main_arg8) (V c main_arg9) (V c main_arg10) :=
  (dat0 V c).arrAt_eq_of_cover 7 _ (fun t _ => flushed7_eq V c t) fun i => by
    have hN : cfg0.N = 10 := N_0
    have h0 : (i 0).val < 50000 := (i 0).isLt
    have h1 : (i 1).val < 64 := (i 1).isLt
    refine ⟨⟨(i 0).val / 5000, by omega⟩, flush0_7 _, ?_⟩
    obtain ⟨-, -, -, -, -, -, -, -, -, -, -, -, e0, e1⟩ := idx_facts ⟨(i 0).val / 5000, by omega⟩
    rw [mem_blk7]
    intro a
    match a with
    | ⟨0, _⟩ =>
      show win0_7.index ⟨(i 0).val / 5000, _⟩ (0 : Fin 2) * 5000 ≤ (i 0).val ∧ (i 0).val < win0_7.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_7.index ⟨(i 0).val / 5000, _⟩ (1 : Fin 2) * 64 ≤ (i 1).val ∧ (i 1).val < win0_7.index ⟨(i 0).val / 5000, _⟩ (1 : Fin 2) * 64 + 64
      rw [e1]; omega

end Cert.KernelIdeal.Region0

end
-- ==== Proof.Region12.lean ====
/-
  Regions 1 and 2, from blocks to arrays: the second transform of the aggregated array and the final
  combination.

  Each region visits ten grid points; point t reads rows 5000·t … 5000·t + 4999 of its row-indexed operands,
  the whole of the bias (and, in region 1, of the weight matrix), and writes back the same rows of its output.
  Region 1 stores relu(a + b₁)·W₂ of the rows it read; region 2 stores (a + b₂)·½ + f·½ of the rows it read.
  Both are row-local, so the ten blocks written back are the blocks of the whole-array stage, they cover the
  output, and the output array ends holding the whole-array stage of the arrays the region found at entry.
-/
import proofs.«153928_j65180423684766_2_alg».proof.Proof.Gen.KernelIdeal.Frame
import proofs.«153928_j65180423684766_2_alg».proof.Proof.Entries
import Idealize.ShloMosaic.Lib.Pipeline.Value

set_option maxRecDepth 16384

noncomputable section

namespace Cert.KernelIdeal.Region12

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 1: relu(a + b₁)·W₂ -/

/-- Region 1's index maps over the grid: the row-tiled windows at block (t, 0), the bias and the weights at block 0. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of the aggregated array is its row 5000·t + p. -/
theorem a_block1 (c : Dev nD) (t : Fin cfg1.N) (p : Fin 5000) (k : Fin 128) (r : Fin 50000) (hr : r.val = t.val * 5000 + p.val) :
    (iblk1 V c 0 t : Vec Ideal S5000x128 .f32) (ix2 p k) = (V c main_v43 : S50000x128.Idx → EReal) (ix2 r k) := by
  obtain ⟨e0, e1, -⟩ := idx_facts1 t
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem b1_block (c : Dev nD) (t : Fin cfg1.N) : (iblk1 V c 1 t : Vec Ideal S128 .f32) = (V c main_arg4 : S128.Idx → EReal) := by
  obtain ⟨-, -, e0, -⟩ := idx_facts1 t
  funext y
  show V c main_arg4 (((cfg1.win 1).blk t).view.emb y) = V c main_arg4 y
  refine congrArg (V c main_arg4) (funext fun a => Fin.ext ?_)
  match a with
  | ⟨0, _⟩ => show win1_1.index t (0 : Fin 1) * 128 + 1 * (y 0).val = (y 0).val; omega

theorem w2_block (c : Dev nD) (t : Fin cfg1.N) : (iblk1 V c 2 t : Vec Ideal S128x64 .f32) = (V c main_arg5 : S128x64.Idx → EReal) := by
  obtain ⟨-, -, -, e0, e1, -⟩ := idx_facts1 t
  funext y
  show V c main_arg5 (((cfg1.win 2).blk t).view.emb y) = V c main_arg5 y
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- What point t writes back is block t of the second transform on the whole array. -/
theorem flushed1_eq (c : Dev nD) (t : Fin cfg1.N) :
    (dat1 V c).flushed 3 t = ((cfg1.win 3).blk t).view.read (Elt Ideal) (Dense.second (V c main_v43) (V c main_arg4) (V c main_arg5)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x64) hz2, View.ld_unit_zero (S := S128) hz1]
  rw [b1_block V c t, w2_block V c t]
  have ht : t.val < 10 := by have hN : cfg1.N = 10 := N_1; have := t.isLt; omega
  obtain ⟨-, -, -, -, -, e0, e1⟩ := idx_facts1 t
  funext j
  obtain ⟨p, q, rfl⟩ : ∃ (p : Fin 5000) (q : Fin 64), j = ix2 p q := ⟨j 0, j 1, eq_ix2 j⟩
  have he : ((cfg1.win 3).blk t).view.emb (ix2 p q) = ix2 (⟨t.val * 5000 + p.val, by have := p.isLt; omega⟩ : Fin 50000) q :=
    funext fun a => Fin.ext (by
      match a with
      | ⟨0, _⟩ => show win1_3.index t (0 : Fin 2) * 5000 + 1 * p.val = t.val * 5000 + p.val; omega
      | ⟨1, _⟩ => show win1_3.index t (1 : Fin 2) * 64 + 1 * q.val = q.val; omega)
  show k1_pay1 (F := Ideal) (iblk1 V c 0 t) (V c main_arg4) (V c main_arg5) (ix2 p q)
    = Dense.second (V c main_v43) (V c main_arg4) (V c main_arg5) (((cfg1.win 3).blk t).view.emb (ix2 p q))
  rw [he, Dense.block_second_apply, Dense.second_apply]
  exact congrArg (fun row => Dense.secondEntry row (V c main_arg4) (V c main_arg5) q) (funext fun k => a_block1 V c t p k _ rfl)

theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

/-- Region 1's output ends holding the second transform of the arrays found at entry. -/
theorem final1 (c : Dev nD) : (dat1 V c).arrAt 3 cfg1.N = Dense.second (V c main_v43) (V c main_arg4) (V c main_arg5) :=
  (dat1 V c).arrAt_eq_of_cover 3 _ (fun t _ => flushed1_eq V c t) fun i => by
    have hN : cfg1.N = 10 := N_1
    have h0 : (i 0).val < 50000 := (i 0).isLt
    have h1 : (i 1).val < 64 := (i 1).isLt
    refine ⟨⟨(i 0).val / 5000, by omega⟩, flush1_3 _, ?_⟩
    obtain ⟨-, -, -, -, -, e0, e1⟩ := idx_facts1 ⟨(i 0).val / 5000, by omega⟩
    rw [mem_blk1]
    intro a
    match a with
    | ⟨0, _⟩ =>
      show win1_3.index ⟨(i 0).val / 5000, _⟩ (0 : Fin 2) * 5000 ≤ (i 0).val ∧ (i 0).val < win1_3.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win1_3.index ⟨(i 0).val / 5000, _⟩ (1 : Fin 2) * 64 ≤ (i 1).val ∧ (i 1).val < win1_3.index ⟨(i 0).val / 5000, _⟩ (1 : Fin 2) * 64 + 64
      rw [e1]; omega

/-! ## Region 2: (a + b₂)·½ + f·½ -/

theorem idx_facts2 : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem a_block2 (c : Dev nD) (t : Fin cfg2.N) (p : Fin 5000) (q : Fin 64) (r : Fin 50000) (hr : r.val = t.val * 5000 + p.val) :
    (iblk2 V c 0 t : Vec Ideal S5000x64 .f32) (ix2 p q) = (V c main_v57 : S50000x64.Idx → EReal) (ix2 r q) := by
  obtain ⟨e0, e1, -⟩ := idx_facts2 t
  show V c main_v57 (((cfg2.win 0).blk t).view.emb (ix2 p q)) = V c main_v57 (ix2 r q)
  refine congrArg (V c main_v57) (funext fun a => Fin.ext ?_)
  match a with
  | ⟨0, _⟩ => show win2_0.index t (0 : Fin 2) * 5000 + 1 * p.val = r.val; omega
  | ⟨1, _⟩ => show win2_0.index t (1 : Fin 2) * 64 + 1 * q.val = q.val; omega

theorem f_block2 (c : Dev nD) (t : Fin cfg2.N) (p : Fin 5000) (q : Fin 64) (r : Fin 50000) (hr : r.val = t.val * 5000 + p.val) :
    (iblk2 V c 2 t : Vec Ideal S5000x64 .f32) (ix2 p q) = (V c main_v30_1 : S50000x64.Idx → EReal) (ix2 r q) := by
  obtain ⟨-, -, -, e0, e1, -⟩ := idx_facts2 t
  show V c main_v30_1 (((cfg2.win 2).blk t).view.emb (ix2 p q)) = V c main_v30_1 (ix2 r q)
  refine congrArg (V c main_v30_1) (funext fun a => Fin.ext ?_)
  match a with
  | ⟨0, _⟩ => show win2_2.index t (0 : Fin 2) * 5000 + 1 * p.val = r.val; omega
  | ⟨1, _⟩ => show win2_2.index t (1 : Fin 2) * 64 + 1 * q.val = q.val; omega

theorem b2_block (c : Dev nD) (t : Fin cfg2.N) : (iblk2 V c 1 t : Vec Ideal S64 .f32) = (V c main_arg6 : S64.Idx → EReal) := by
  obtain ⟨-, -, e0, -⟩ := idx_facts2 t
  funext y
  show V c main_arg6 (((cfg2.win 1).blk t).view.emb y) = V c main_arg6 y
  refine congrArg (V c main_arg6) (funext fun a => Fin.ext ?_)
  match a with
  | ⟨0, _⟩ => show win2_1.index t (0 : Fin 1) * 64 + 1 * (y 0).val = (y 0).val; omega

/-- What point t writes back is block t of the combination on the whole arrays. -/
theorem flushed2_eq (c : Dev nD) (t : Fin cfg2.N) :
    (dat2 V c).flushed 3 t = ((cfg2.win 3).blk t).view.read (Elt Ideal) (Dense.mix (V c main_v57) (V c main_arg6) (V c main_v30_1)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64) hz1]
  rw [b2_block V c t]
  have ht : t.val < 10 := by have hN : cfg2.N = 10 := N_2; have := t.isLt; omega
  obtain ⟨-, -, -, -, -, e0, e1⟩ := idx_facts2 t
  funext j
  obtain ⟨p, q, rfl⟩ : ∃ (p : Fin 5000) (q : Fin 64), j = ix2 p q := ⟨j 0, j 1, eq_ix2 j⟩
  have hlt : t.val * 5000 + p.val < 50000 := by have := p.isLt; omega
  have he : ((cfg2.win 3).blk t).view.emb (ix2 p q) = ix2 (⟨t.val * 5000 + p.val, hlt⟩ : Fin 50000) q :=
    funext fun a => Fin.ext (by
      match a with
      | ⟨0, _⟩ => show win2_3.index t (0 : Fin 2) * 5000 + 1 * p.val = t.val * 5000 + p.val; omega
      | ⟨1, _⟩ => show win2_3.index t (1 : Fin 2) * 64 + 1 * q.val = q.val; omega)
  show k2_pay1 (F := Ideal) (iblk2 V c 0 t) (V c main_arg6) (iblk2 V c 2 t) (ix2 p q)
    = Dense.mix (V c main_v57) (V c main_arg6) (V c main_v30_1) (((cfg2.win 3).blk t).view.emb (ix2 p q))
  rw [he, Dense.block_mix_apply, Dense.mix_apply, a_block2 V c t p q ⟨t.val * 5000 + p.val, hlt⟩ rfl,
    f_block2 V c t p q ⟨t.val * 5000 + p.val, hlt⟩ rfl]

theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v58).slice (win2_3.rect t)).set ↔ _
  rw [View.set_slice_whole, Rect.mem_set_unit]
  exact Iff.rfl

/-- Region 2's output ends holding the combination of the arrays found at entry. -/
theorem final2 (c : Dev nD) : (dat2 V c).arrAt 3 cfg2.N = Dense.mix (V c main_v57) (V c main_arg6) (V c main_v30_1) :=
  (dat2 V c).arrAt_eq_of_cover 3 _ (fun t _ => flushed2_eq V c t) fun i => by
    have hN : cfg2.N = 10 := N_2
    have h0 : (i 0).val < 50000 := (i 0).isLt
    have h1 : (i 1).val < 64 := (i 1).isLt
    refine ⟨⟨(i 0).val / 5000, by omega⟩, flush2_3 _, ?_⟩
    obtain ⟨-, -, -, -, -, e0, e1⟩ := idx_facts2 ⟨(i 0).val / 5000, by omega⟩
    rw [mem_blk2]
    intro a
    match a with
    | ⟨0, _⟩ =>
      show win2_3.index ⟨(i 0).val / 5000, _⟩ (0 : Fin 2) * 5000 ≤ (i 0).val ∧ (i 0).val < win2_3.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win2_3.index ⟨(i 0).val / 5000, _⟩ (1 : Fin 2) * 64 ≤ (i 1).val ∧ (i 1).val < win2_3.index ⟨(i 0).val / 5000, _⟩ (1 : Fin 2) * 64 + 64
      rw [e1]; omega

end Cert.KernelIdeal.Region12

end
-- ==== Proof.Fold.lean ====
/-
  The buffer contents at the three regions' exits, at the buffers the later host stretches read.

  A region leaves each of its output arrays at the whole-array stage of what it found at entry (the two
  blocks-to-arrays modules) and every other buffer as it found it. Read at the fold of @main's buffer contents:
  after region 0 the two outputs hold x·W₁ and the fully connected branch of the entry contents of the node
  features, weights and biases; after region 1 the output holds the second transform of the aggregated array;
  after region 2 the output holds the combination of the second aggregated array with the branch.
-/
import proofs.«153928_j65180423684766_2_alg».proof.Proof.Region0
import proofs.«153928_j65180423684766_2_alg».proof.Proof.Region12

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- After region 0 its first output holds x·W₁ of the entry contents. -/
theorem exit0_first : W4 m ρ c (Proc.devRef .tc main_v30_0)
    = Dense.first (W3 m ρ c (Proc.devRef .tc main_arg0)) (W3 m ρ c (Proc.devRef .tc main_arg3)) :=
  (W4_arr m ρ c 6).trans (Region0.final6 (V3 m ρ) c)

/-- After region 0 its second output holds relu(x·Wf₁ + bf₁)·Wf₂ + bf₂ of the entry contents. -/
theorem exit0_branch : W4 m ρ c (Proc.devRef .tc main_v30_1)
    = Dense.branch (W3 m ρ c (Proc.devRef .tc main_arg0)) (W3 m ρ c (Proc.devRef .tc main_arg7)) (W3 m ρ c (Proc.devRef .tc main_arg8))
        (W3 m ρ c (Proc.devRef .tc main_arg9)) (W3 m ρ c (Proc.devRef .tc main_arg10)) :=
  (W4_arr m ρ c 7).trans (Region0.final7 (V3 m ρ) c)

/-- After region 1 its output holds relu(a + b₁)·W₂ of the entry contents. -/
theorem exit1_second : W6 m ρ c (Proc.devRef .tc main_v44)
    = Dense.second (W5 m ρ c (Proc.devRef .tc main_v43)) (W5 m ρ c (Proc.devRef .tc main_arg4)) (W5 m ρ c (Proc.devRef .tc main_arg5)) :=
  (W6_arr m ρ c 3).trans (Region12.final1 (V5 m ρ) c)

/-- After region 2 its output holds (a + b₂)·½ + f·½ of the entry contents. -/
theorem exit2_mix : W8 m ρ c (Proc.devRef .tc main_v58)
    = Dense.mix (W7 m ρ c (Proc.devRef .tc main_v57)) (W7 m ρ c (Proc.devRef .tc main_arg6)) (W7 m ρ c (Proc.devRef .tc main_v30_1)) :=
  (W8_arr m ρ c 3).trans (Region12.final2 (V7 m ρ) c)

/-! A region keeps the buffers that are not among its arrays. -/

theorem keep0_norm : W4 m ρ c (Proc.devRef .tc main_v29) = W3 m ρ c (Proc.devRef .tc main_v29) := W4_of_ne m ρ c main_v29 (by decide)
theorem keep0_src : W4 m ρ c (Proc.devRef .tc main_v3) = W3 m ρ c (Proc.devRef .tc main_v3) := W4_of_ne m ρ c main_v3 (by decide)
theorem keep0_dst : W4 m ρ c (Proc.devRef .tc main_v6) = W3 m ρ c (Proc.devRef .tc main_v6) := W4_of_ne m ρ c main_v6 (by decide)
theorem keep0_arg2 : W4 m ρ c (Proc.devRef .tc main_arg2) = W3 m ρ c (Proc.devRef .tc main_arg2) := W4_of_ne m ρ c main_arg2 (by decide)
theorem keep0_arg4 : W4 m ρ c (Proc.devRef .tc main_arg4) = W3 m ρ c (Proc.devRef .tc main_arg4) := W4_of_ne m ρ c main_arg4 (by decide)
theorem keep0_arg5 : W4 m ρ c (Proc.devRef .tc main_arg5) = W3 m ρ c (Proc.devRef .tc main_arg5) := W4_of_ne m ρ c main_arg5 (by decide)
theorem keep0_arg6 : W4 m ρ c (Proc.devRef .tc main_arg6) = W3 m ρ c (Proc.devRef .tc main_arg6) := W4_of_ne m ρ c main_arg6 (by decide)

theorem keep1_norm : W6 m ρ c (Proc.devRef .tc main_v29) = W5 m ρ c (Proc.devRef .tc main_v29) := W6_of_ne m ρ c main_v29 (by decide)
theorem keep1_src : W6 m ρ c (Proc.devRef .tc main_v3) = W5 m ρ c (Proc.devRef .tc main_v3) := W6_of_ne m ρ c main_v3 (by decide)
theorem keep1_dst : W6 m ρ c (Proc.devRef .tc main_v6) = W5 m ρ c (Proc.devRef .tc main_v6) := W6_of_ne m ρ c main_v6 (by decide)
theorem keep1_arg2 : W6 m ρ c (Proc.devRef .tc main_arg2) = W5 m ρ c (Proc.devRef .tc main_arg2) := W6_of_ne m ρ c main_arg2 (by decide)
theorem keep1_arg6 : W6 m ρ c (Proc.devRef .tc main_arg6) = W5 m ρ c (Proc.devRef .tc main_arg6) := W6_of_ne m ρ c main_arg6 (by decide)
theorem keep1_branch : W6 m ρ c (Proc.devRef .tc main_v30_1) = W5 m ρ c (Proc.devRef .tc main_v30_1) := W6_of_ne m ρ c main_v30_1 (by decide)

theorem keep2_arg2 : W8 m ρ c (Proc.devRef .tc main_arg2) = W7 m ρ c (Proc.devRef .tc main_arg2) := W8_of_ne m ρ c main_arg2 (by decide)

end Cert.KernelIdeal.Fold

end
-- ==== Proof.Glue.lean ====
/-
  The host stages of the network, named once, and the reference's composed term as their composition.

  Besides the four dense stages the network has these stages, all on the host in both programs: the source and
  destination lists (a row of the edge array followed by one self-loop per node); the in-degree (ones
  scatter-added by destination) and its inverse square root where positive, zero elsewhere; the edge norm (the
  product of that quantity at the two endpoints, each endpoint read as numpy reads an index); the aggregation
  of a node array h (gather the rows of h by source, scale each by the edge norm, scatter-add by destination),
  at 128 and at 64 columns; and the decode (gather the rows of z by the two rows of the query array, multiply,
  sum along the columns). The reference's run ends with the returned buffer at one composed term of the
  eleven arguments; it is the composition of the named stages.
-/
import proofs.«153928_j65180423684766_2_alg».proof.Proof.Entries
import proofs.«153928_j65180423684766_2_alg».proof.Proof.ReferenceRun

set_option maxRecDepth 16384

noncomputable section

namespace Cert.Glue

open Idealize.ShloMosaic Idealize.ShloMosaic.TcCoe Idealize.SL.Sem
open Cert.ReferenceIdeal Cert.ReferenceIdeal.Gen

/-- The source list: the first row of the edge array, then one self-loop per node. -/
def srcOf (e : IVec S2x1600000 32) : IVec S1650000 32 :=
  concatenate S1650000 0
    [⟨S1600000, shapeCast S1600000 (extractStridedSlice S1x1600000 ![0, 0] e slices_S2x1600000_S1x1600000_0_0) shapeCasts_S1x1600000_S1600000⟩,
     ⟨S50000, iotaInDim S50000 32 0⟩] concatenates_S1600000_S50000_S1650000_d0

/-- The destination list: the second row of the edge array, then one self-loop per node. -/
def dstOf (e : IVec S2x1600000 32) : IVec S1650000 32 :=
  concatenate S1650000 0
    [⟨S1600000, shapeCast S1600000 (extractStridedSlice S1x1600000 ![1, 0] e slices_S2x1600000_S1x1600000_1_0) shapeCasts_S1x1600000_S1600000⟩,
     ⟨S50000, iotaInDim S50000 32 0⟩] concatenates_S1600000_S50000_S1650000_d0

/-- The in-degree of every node: ones scatter-added by destination. -/
def degOf (d : IVec S1650000 32) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 d)
    (broadcastInDim S1650000 ![] bcast_S_S1650000 (constant (F := Ideal) S_ .f32 0x3F800000#32))

/-- Is the degree positive. -/
def posOf (g : FVec Ideal S50000 .f32) : IVec S50000 1 :=
  cmpf (F := Ideal) .ogt g (broadcastInDim S50000 ![] bcast_S_S50000 (constant (F := Ideal) S_ .f32 0x00000000#32))

/-- The choice "a where the flag is set, the scalar z elsewhere". -/
def whereOf (p : IVec S50000 1) (a : FVec Ideal S50000 .f32) (z : FVec Ideal S_ .f32) : FVec Ideal S50000 .f32 :=
  select p a (broadcastInDim S50000 ![] bcast_S_S50000 (id z))

/-- The inverse square root of the degree where it is positive, zero elsewhere. -/
def dinvOf (d : IVec S1650000 32) : FVec Ideal S50000 .f32 :=
  whereOf (posOf (degOf d)) (Host.rsqrt (F := Ideal) (degOf d)) (constant (F := Ideal) S_ .f32 0x00000000#32)

/-- A node index read as numpy reads it: a negative word wraps once around the node count. -/
def wrapOf (i : IVec S1650000 32) : IVec S1650000 32 :=
  select (cmpi .slt i (broadcastInDim S1650000 ![] bcast_S_S1650000 (constantI S_ 32 0#32)))
    (addi i (broadcastInDim S1650000 ![] bcast_S_S1650000 (constantI S_ 32 50000#32))) i

/-- The edge norm from a per-node factor: its product at the two endpoints. -/
def normWith (f : FVec Ideal S50000 .f32) (s d : IVec S1650000 32) : FVec Ideal S1650000 .f32 :=
  mulf (Host.gather gather_S50000_S1650000x1_S1650000_n_0_n_n_0_1_1 f
      (broadcastInDim S1650000x1 ![0] bcast_S1650000_S1650000x1_0 (wrapOf s)))
    (Host.gather gather_S50000_S1650000x1_S1650000_n_0_n_n_0_1_1 f
      (broadcastInDim S1650000x1 ![0] bcast_S1650000_S1650000x1_0 (wrapOf d)))

/-- The aggregation of a 128-column node array: rows gathered by source, scaled by the edge norm, scatter-added by destination. -/
def aggWide (n : FVec Ideal S1650000 .f32) (s d : IVec S1650000 32) (h : FVec Ideal S50000x128 .f32) : FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 d)
    (mulf (broadcastInDim S1650000x128 ![0, 1] bcast_S1650000x1_S1650000x128_0_1 (broadcastInDim S1650000x1 ![0] bcast_S1650000_S1650000x1_0 n))
      (Host.gather gather_S50000x128_S1650000x1_S1650000x128_1_0_n_n_0_1_1128 h
        (broadcastInDim S1650000x1 ![0] bcast_S1650000_S1650000x1_0 (wrapOf s))))

/-- The aggregation of a 64-column node array. -/
def aggNarrow (n : FVec Ideal S1650000 .f32) (s d : IVec S1650000 32) (h : FVec Ideal S50000x64 .f32) : FVec Ideal S50000x64 .f32 :=
  Host.scatterAdd (F := Ideal) scatter_S50000x64_S1650000x1_S1650000x64_1_0_0_1
    (broadcastInDim S50000x64 ![] bcast_S_S50000x64 (constant (F := Ideal) S_ .f32 0x00000000#32))
    (broadcastInDim S1650000x1 ![0] bcast_S1650000_S1650000x1_0 d)
    (mulf (broadcastInDim S1650000x64 ![0, 1] bcast_S1650000x1_S1650000x64_0_1 (broadcastInDim S1650000x1 ![0] bcast_S1650000_S1650000x1_0 n))
      (Host.gather gather_S50000x64_S1650000x1_S1650000x64_1_0_n_n_0_1_164 h
        (broadcastInDim S1650000x1 ![0] bcast_S1650000_S1650000x1_0 (wrapOf s))))

/-- A query index read as numpy reads it. -/
def wrapQuery (i : IVec S500000 32) : IVec S500000 32 :=
  select (cmpi .slt i (broadcastInDim S500000 ![] bcast_S_S500000 (constantI S_ 32 0#32)))
    (addi i (broadcastInDim S500000 ![] bcast_S_S500000 (constantI S_ 32 50000#32))) i

/-- The decode: for each query edge the inner product of the two endpoints' rows of z. -/
def decode (q : IVec S2x500000 32) (z : FVec Ideal S50000x64 .f32) : FVec Ideal S500000 .f32 :=
  Host.reduceAdd (F := Ideal)
    (mulf
      (Host.gather gather_S50000x64_S500000x1_S500000x64_1_0_n_n_0_1_164 z
        (broadcastInDim S500000x1 ![0] bcast_S500000_S500000x1_0
          (wrapQuery (shapeCast S500000 (extractStridedSlice S1x500000 ![0, 0] q slices_S2x500000_S1x500000_0_0) shapeCasts_S1x500000_S500000))))
      (Host.gather gather_S50000x64_S500000x1_S500000x64_1_0_n_n_0_1_164 z
        (broadcastInDim S500000x1 ![0] bcast_S500000_S500000x1_0
          (wrapQuery (shapeCast S500000 (extractStridedSlice S1x500000 ![1, 0] q slices_S2x500000_S1x500000_1_0) shapeCasts_S1x500000_S500000)))))
    (constant (F := Ideal) S_ .f32 0x00000000#32) reducesTo_S500000x64_S500000_d1 h_S_

/-- The whole network as one function of the eleven arguments. -/
def network (x : FVec Ideal S50000x128 .f32) (e : IVec S2x1600000 32) (q : IVec S2x500000 32)
    (w1 : FVec Ideal S128x128 .f32) (b1 : FVec Ideal S128 .f32) (w2 : FVec Ideal S128x64 .f32) (b2 : FVec Ideal S64 .f32)
    (wf1 : FVec Ideal S128x256 .f32) (bf1 : FVec Ideal S256 .f32) (wf2 : FVec Ideal S256x64 .f32) (bf2 : FVec Ideal S64 .f32) :
    FVec Ideal S500000 .f32 :=
  decode q
    (Dense.mix
      (aggNarrow (normWith (dinvOf (dstOf e)) (srcOf e) (dstOf e)) (srcOf e) (dstOf e)
        (Dense.second (aggWide (normWith (dinvOf (dstOf e)) (srcOf e) (dstOf e)) (srcOf e) (dstOf e) (Dense.first x w1)) b1 w2))
      b2 (Dense.branch x wf1 bf1 wf2 bf2))

set_option maxHeartbeats 4000000 in
/-- The reference's composed term is the network of the arguments. -/
theorem reference_eq (m : (ℓ : Loc nD τ sig) → Buf (Elt Ideal) ℓ) (c : Dev nD) :
    Cert.ReferenceIdeal.ValueP.res_main_v98 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v98 network decode wrapQuery aggNarrow aggWide normWith wrapOf dinvOf whereOf posOf degOf
    dstOf srcOf Dense.mix Dense.second Dense.first Dense.branch
  with_reducible rfl

end Cert.Glue

end
-- ==== Proof.Stretches.lean ====
/-
  The host stretches of the kernel program, one at a time over arbitrary buffer contents.

  A stretch of host operations replaces the contents of the buffers it writes by its operations' results and
  keeps every other buffer. Read at the buffer a later stage consumes, each stretch is one named stage of the
  network applied to the contents it finds: the first stretch builds the edge lists and the degree's
  positivity flag and inverse square root; the helper call chooses between the latter and zero (its typed
  references carry contents to a buffer's own type and back, which changes nothing); the third stretch
  forms the edge norm; the stretches between the regions are the two aggregations; the last is the decode.
-/
import proofs.«153928_j65180423684766_2_alg».proof.Proof.Gen.KernelIdeal.Frame
import proofs.«153928_j65180423684766_2_alg».proof.Proof.Glue
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- The rewriting form of the fold's evaluation, for the places the one-pass form does not reach (the operands of a
    concatenation sit inside the list's pairs). -/
macro "finish_results" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

/-! ## The first stretch: edge lists, degree flag, inverse square root -/

set_option maxHeartbeats 4000000 in
theorem first_src (V : Valuation τ sig (Elt Ideal)) :
    StableHlo.after hostOps0 V (Proc.devRef .tc main_v3) = Glue.srcOf (V (Proc.devRef .tc main_arg1)) := by
  after_results_simp
  finish_results
  unfold Glue.srcOf
  rfl

set_option maxHeartbeats 4000000 in
theorem first_dst (V : Valuation τ sig (Elt Ideal)) :
    StableHlo.after hostOps0 V (Proc.devRef .tc main_v6) = Glue.dstOf (V (Proc.devRef .tc main_arg1)) := by
  after_results_simp
  finish_results
  unfold Glue.dstOf
  rfl

set_option maxHeartbeats 4000000 in
theorem first_pos (V : Valuation τ sig (Elt Ideal)) :
    StableHlo.after hostOps0 V (Proc.devRef .tc main_v12) = Glue.posOf (Glue.degOf (Glue.dstOf (V (Proc.devRef .tc main_arg1)))) := by
  after_results_simp
  finish_results
  unfold Glue.posOf Glue.degOf Glue.dstOf
  rfl

set_option maxHeartbeats 4000000 in
theorem first_rsqrt (V : Valuation τ sig (Elt Ideal)) :
    StableHlo.after hostOps0 V (Proc.devRef .tc main_v13) = Host.rsqrt (F := Ideal) (Glue.degOf (Glue.dstOf (V (Proc.devRef .tc main_arg1)))) := by
  after_results_simp
  finish_results
  unfold Glue.degOf Glue.dstOf
  rfl

theorem first_zero (V : Valuation τ sig (Elt Ideal)) :
    StableHlo.after hostOps0 V (Proc.devRef .tc main_cst_2) = constant (F := Ideal) Cert.ReferenceIdeal.S_ .f32 0x00000000#32 := by
  after_results_simp

theorem first_keep_arg0 (V : Valuation τ sig (Elt Ideal)) : StableHlo.after hostOps0 V (Proc.devRef .tc main_arg0) = V (Proc.devRef .tc main_arg0) := by
  after_results_simp
theorem first_keep_arg2 (V : Valuation τ sig (Elt Ideal)) : StableHlo.after hostOps0 V (Proc.devRef .tc main_arg2) = V (Proc.devRef .tc main_arg2) := by
  after_results_simp
theorem first_keep_arg3 (V : Valuation τ sig (Elt Ideal)) : StableHlo.after hostOps0 V (Proc.devRef .tc main_arg3) = V (Proc.devRef .tc main_arg3) := by
  after_results_simp
theorem first_keep_arg4 (V : Valuation τ sig (Elt Ideal)) : StableHlo.after hostOps0 V (Proc.devRef .tc main_arg4) = V (Proc.devRef .tc main_arg4) := by
  after_results_simp
theorem first_keep_arg5 (V : Valuation τ sig (Elt Ideal)) : StableHlo.after hostOps0 V (Proc.devRef .tc main_arg5) = V (Proc.devRef .tc main_arg5) := by
  after_results_simp
theorem first_keep_arg6 (V : Valuation τ sig (Elt Ideal)) : StableHlo.after hostOps0 V (Proc.devRef .tc main_arg6) = V (Proc.devRef .tc main_arg6) := by
  after_results_simp
theorem first_keep_arg7 (V : Valuation τ sig (Elt Ideal)) : StableHlo.after hostOps0 V (Proc.devRef .tc main_arg7) = V (Proc.devRef .tc main_arg7) := by
  after_results_simp
theorem first_keep_arg8 (V : Valuation τ sig (Elt Ideal)) : StableHlo.after hostOps0 V (Proc.devRef .tc main_arg8) = V (Proc.devRef .tc main_arg8) := by
  after_results_simp
theorem first_keep_arg9 (V : Valuation τ sig (Elt Ideal)) : StableHlo.after hostOps0 V (Proc.devRef .tc main_arg9) = V (Proc.devRef .tc main_arg9) := by
  after_results_simp
theorem first_keep_arg10 (V : Valuation τ sig (Elt Ideal)) : StableHlo.after hostOps0 V (Proc.devRef .tc main_arg10) = V (Proc.devRef .tc main_arg10) := by
  after_results_simp

/-! ## The helper call: the choice -/

theorem call_where (V : Valuation τ sig (Elt Ideal)) :
    StableHlo.after hostOps0_1 V (Proc.devRef .tc main_v14) = Glue.whereOf (V (Proc.devRef .tc main_v12)) (V (Proc.devRef .tc main_v13)) (V (Proc.devRef .tc main_cst_2)) := by
  after_results_simp
  unfold Glue.whereOf
  rfl

theorem call_keep_v3 (V : Valuation τ sig (Elt Ideal)) : StableHlo.after hostOps0_1 V (Proc.devRef .tc main_v3) = V (Proc.devRef .tc main_v3) := by
  after_results_simp
theorem call_keep_v6 (V : Valuation τ sig (Elt Ideal)) : StableHlo.after hostOps0_1 V (Proc.devRef .tc main_v6) = V (Proc.devRef .tc main_v6) := by
  after_results_simp
theorem call_keep_arg0 (V : Valuation τ sig (Elt Ideal)) : StableHlo.after hostOps0_1 V (Proc.devRef .tc main_arg0) = V (Proc.devRef .tc main_arg0) := by
  after_results_simp
theorem call_keep_arg2 (V : Valuation τ sig (Elt Ideal)) : StableHlo.after hostOps0_1 V (Proc.devRef .tc main_arg2) = V (Proc.devRef .tc main_arg2) := by
  after_results_simp
theorem call_keep_arg3 (V : Valuation τ sig (Elt Ideal)) : StableHlo.after hostOps0_1 V (Proc.devRef .tc main_arg3) = V (Proc.devRef .tc main_arg3) := by
  after_results_simp
theorem call_keep_arg4 (V : Valuation τ sig (Elt Ideal)) : StableHlo.after hostOps0_1 V (Proc.devRef .tc main_arg4) = V (Proc.devRef .tc main_arg4) := by
  after_results_simp
theorem call_keep_arg5 (V : Valuation τ sig (Elt Ideal)) : StableHlo.after hostOps0_1 V (Proc.devRef .tc main_arg5) = V (Proc.devRef .tc main_arg5) := by
  after_results_simp
theorem call_keep_arg6 (V : Valuation τ sig (Elt Ideal)) : StableHlo.after hostOps0_1 V (Proc.devRef .tc main_arg6) = V (Proc.devRef .tc main_arg6) := by
  after_results_simp
theorem call_keep_arg7 (V : Valuation τ sig (Elt Ideal)) : StableHlo.after hostOps0_1 V (Proc.devRef .tc main_arg7) = V (Proc.devRef .tc main_arg7) := by
  after_results_simp
theorem call_keep_arg8 (V : Valuation τ sig (Elt Ideal)) : StableHlo.after hostOps0_1 V (Proc.devRef .tc main_arg8) = V (Proc.devRef .tc main_arg8) := by
  after_results_simp
theorem call_keep_arg9 (V : Valuation τ sig (Elt Ideal)) : StableHlo.after hostOps0_1 V (Proc.devRef .tc main_arg9) = V (Proc.devRef .tc main_arg9) := by
  after_results_simp
theorem call_keep_arg10 (V : Valuation τ sig (Elt Ideal)) : StableHlo.after hostOps0_1 V (Proc.devRef .tc main_arg10) = V (Proc.devRef .tc main_arg10) := by
  after_results_simp

/-! ## The third stretch: the edge norm -/

set_option maxHeartbeats 4000000 in
theorem third_norm (V : Valuation τ sig (Elt Ideal)) :
    StableHlo.after hostOps0_2 V (Proc.devRef .tc main_v29) = Glue.normWith (V (Proc.devRef .tc main_v14)) (V (Proc.devRef .tc main_v3)) (V (Proc.devRef .tc main_v6)) := by
  after_results_simp
  unfold Glue.normWith Glue.wrapOf
  rfl

theorem third_keep_v3 (V : Valuation τ sig (Elt Ideal)) : StableHlo.after hostOps0_2 V (Proc.devRef .tc main_v3) = V (Proc.devRef .tc main_v3) := by
  after_results_simp
theorem third_keep_v6 (V : Valuation τ sig (Elt Ideal)) : StableHlo.after hostOps0_2 V (Proc.devRef .tc main_v6) = V (Proc.devRef .tc main_v6) := by
  after_results_simp
theorem third_keep_arg0 (V : Valuation τ sig (Elt Ideal)) : StableHlo.after hostOps0_2 V (Proc.devRef .tc main_arg0) = V (Proc.devRef .tc main_arg0) := by
  after_results_simp
theorem third_keep_arg2 (V : Valuation τ sig (Elt Ideal)) : StableHlo.after hostOps0_2 V (Proc.devRef .tc main_arg2) = V (Proc.devRef .tc main_arg2) := by
  after_results_simp
theorem third_keep_arg3 (V : Valuation τ sig (Elt Ideal)) : StableHlo.after hostOps0_2 V (Proc.devRef .tc main_arg3) = V (Proc.devRef .tc main_arg3) := by
  after_results_simp
theorem third_keep_arg4 (V : Valuation τ sig (Elt Ideal)) : StableHlo.after hostOps0_2 V (Proc.devRef .tc main_arg4) = V (Proc.devRef .tc main_arg4) := by
  after_results_simp
theorem third_keep_arg5 (V : Valuation τ sig (Elt Ideal)) : StableHlo.after hostOps0_2 V (Proc.devRef .tc main_arg5) = V (Proc.devRef .tc main_arg5) := by
  after_results_simp
theorem third_keep_arg6 (V : Valuation τ sig (Elt Ideal)) : StableHlo.after hostOps0_2 V (Proc.devRef .tc main_arg6) = V (Proc.devRef .tc main_arg6) := by
  after_results_simp
theorem third_keep_arg7 (V : Valuation τ sig (Elt Ideal)) : StableHlo.after hostOps0_2 V (Proc.devRef .tc main_arg7) = V (Proc.devRef .tc main_arg7) := by
  after_results_simp
theorem third_keep_arg8 (V : Valuation τ sig (Elt Ideal)) : StableHlo.after hostOps0_2 V (Proc.devRef .tc main_arg8) = V (Proc.devRef .tc main_arg8) := by
  after_results_simp
theorem third_keep_arg9 (V : Valuation τ sig (Elt Ideal)) : StableHlo.after hostOps0_2 V (Proc.devRef .tc main_arg9) = V (Proc.devRef .tc main_arg9) := by
  after_results_simp
theorem third_keep_arg10 (V : Valuation τ sig (Elt Ideal)) : StableHlo.after hostOps0_2 V (Proc.devRef .tc main_arg10) = V (Proc.devRef .tc main_arg10) := by
  after_results_simp

/-! ## Between the regions: the two aggregations -/

set_option maxHeartbeats 4000000 in
theorem wide_agg (V : Valuation τ sig (Elt Ideal)) :
    StableHlo.after hostOps1 V (Proc.devRef .tc main_v43)
      = Glue.aggWide (V (Proc.devRef .tc main_v29)) (V (Proc.devRef .tc main_v3)) (V (Proc.devRef .tc main_v6)) (V (Proc.devRef .tc main_v30_0)) := by
  after_results_simp
  unfold Glue.aggWide Glue.wrapOf
  rfl

theorem wide_keep_v29 (V : Valuation τ sig (Elt Ideal)) : StableHlo.after hostOps1 V (Proc.devRef .tc main_v29) = V (Proc.devRef .tc main_v29) := by
  after_results_simp
theorem wide_keep_v3 (V : Valuation τ sig (Elt Ideal)) : StableHlo.after hostOps1 V (Proc.devRef .tc main_v3) = V (Proc.devRef .tc main_v3) := by
  after_results_simp
theorem wide_keep_v6 (V : Valuation τ sig (Elt Ideal)) : StableHlo.after hostOps1 V (Proc.devRef .tc main_v6) = V (Proc.devRef .tc main_v6) := by
  after_results_simp
theorem wide_keep_arg2 (V : Valuation τ sig (Elt Ideal)) : StableHlo.after hostOps1 V (Proc.devRef .tc main_arg2) = V (Proc.devRef .tc main_arg2) := by
  after_results_simp
theorem wide_keep_arg4 (V : Valuation τ sig (Elt Ideal)) : StableHlo.after hostOps1 V (Proc.devRef .tc main_arg4) = V (Proc.devRef .tc main_arg4) := by
  after_results_simp
theorem wide_keep_arg5 (V : Valuation τ sig (Elt Ideal)) : StableHlo.after hostOps1 V (Proc.devRef .tc main_arg5) = V (Proc.devRef .tc main_arg5) := by
  after_results_simp
theorem wide_keep_arg6 (V : Valuation τ sig (Elt Ideal)) : StableHlo.after hostOps1 V (Proc.devRef .tc main_arg6) = V (Proc.devRef .tc main_arg6) := by
  after_results_simp
theorem wide_keep_v30_1 (V : Valuation τ sig (Elt Ideal)) : StableHlo.after hostOps1 V (Proc.devRef .tc main_v30_1) = V (Proc.devRef .tc main_v30_1) := by
  after_results_simp

set_option maxHeartbeats 4000000 in
theorem narrow_agg (V : Valuation τ sig (Elt Ideal)) :
    StableHlo.after hostOps2 V (Proc.devRef .tc main_v57)
      = Glue.aggNarrow (V (Proc.devRef .tc main_v29)) (V (Proc.devRef .tc main_v3)) (V (Proc.devRef .tc main_v6)) (V (Proc.devRef .tc main_v44)) := by
  after_results_simp
  unfold Glue.aggNarrow Glue.wrapOf
  rfl

theorem narrow_keep_arg2 (V : Valuation τ sig (Elt Ideal)) : StableHlo.after hostOps2 V (Proc.devRef .tc main_arg2) = V (Proc.devRef .tc main_arg2) := by
  after_results_simp
theorem narrow_keep_arg6 (V : Valuation τ sig (Elt Ideal)) : StableHlo.after hostOps2 V (Proc.devRef .tc main_arg6) = V (Proc.devRef .tc main_arg6) := by
  after_results_simp
theorem narrow_keep_v30_1 (V : Valuation τ sig (Elt Ideal)) : StableHlo.after hostOps2 V (Proc.devRef .tc main_v30_1) = V (Proc.devRef .tc main_v30_1) := by
  after_results_simp

/-! ## The last stretch: the decode -/

set_option maxHeartbeats 4000000 in
theorem last_decode (V : Valuation τ sig (Elt Ideal)) :
    StableHlo.after hostOps3 V (Proc.devRef .tc main_v78) = Glue.decode (V (Proc.devRef .tc main_arg2)) (V (Proc.devRef .tc main_v58)) := by
  after_results_simp
  unfold Glue.decode Glue.wrapQuery
  rfl

end Cert.KernelIdeal.Stretch

end
-- ==== Proof.Bridge.lean ====
/-
  The kernel program's returned array is the network of the arguments, and so is the reference's.

  The contents of the returned buffer at the end of the kernel program's fold are read back one stretch at a
  time, from the last to the first. The last stretch is the decode of the combined array z over the query
  edges. Region 2 left z = (a₂ + b₂)·½ + f·½, where a₂ is the aggregation of h₂ and f the fully connected
  branch. Region 1 left h₂ = relu(a₁ + b₁)·W₂ with a₁ the aggregation of h₁, and region 0 left h₁ = x·W₁ and
  f. The edge lists with their self-loops and the edge norm come from the first three stretches and pass
  through the regions and the later stretches unchanged, as do the arguments. The result is the network of
  the eleven arguments, stage for stage; the reference's composed term is the same composition.
-/
import proofs.«153928_j65180423684766_2_alg».proof.Proof.Fold
import proofs.«153928_j65180423684766_2_alg».proof.Proof.Stretches

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's entry contents: the edge lists, the edge norm, the arguments -/

theorem entry_src : W3 m ρ c (Proc.devRef .tc main_v3) = Glue.srcOf (m ((c.tc : Thread nD τ).loc main_arg1)) := by
  show StableHlo.after hostOps0_2 (StableHlo.after hostOps0_1 (StableHlo.after hostOps0 (W0 m ρ c))) (Proc.devRef .tc main_v3) = _
  rw [Stretch.third_keep_v3, Stretch.call_keep_v3, Stretch.first_src]

theorem entry_dst : W3 m ρ c (Proc.devRef .tc main_v6) = Glue.dstOf (m ((c.tc : Thread nD τ).loc main_arg1)) := by
  show StableHlo.after hostOps0_2 (StableHlo.after hostOps0_1 (StableHlo.after hostOps0 (W0 m ρ c))) (Proc.devRef .tc main_v6) = _
  rw [Stretch.third_keep_v6, Stretch.call_keep_v6, Stretch.first_dst]

theorem entry_norm : W3 m ρ c (Proc.devRef .tc main_v29)
    = Glue.normWith (Glue.dinvOf (Glue.dstOf (m ((c.tc : Thread nD τ).loc main_arg1))))
        (Glue.srcOf (m ((c.tc : Thread nD τ).loc main_arg1))) (Glue.dstOf (m ((c.tc : Thread nD τ).loc main_arg1))) := by
  show StableHlo.after hostOps0_2 (StableHlo.after hostOps0_1 (StableHlo.after hostOps0 (W0 m ρ c))) (Proc.devRef .tc main_v29) = _
  rw [Stretch.third_norm, Stretch.call_where, Stretch.call_keep_v3, Stretch.call_keep_v6, Stretch.first_pos, Stretch.first_rsqrt,
    Stretch.first_zero, Stretch.first_src, Stretch.first_dst]
  unfold Glue.dinvOf
  rfl

theorem entry_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  rw [Stretch.third_keep_arg0, Stretch.call_keep_arg0, Stretch.first_keep_arg0]

theorem entry_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  rw [Stretch.third_keep_arg2, Stretch.call_keep_arg2, Stretch.first_keep_arg2]

theorem entry_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  rw [Stretch.third_keep_arg3, Stretch.call_keep_arg3, Stretch.first_keep_arg3]

theorem entry_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  rw [Stretch.third_keep_arg4, Stretch.call_keep_arg4, Stretch.first_keep_arg4]

theorem entry_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  rw [Stretch.third_keep_arg5, Stretch.call_keep_arg5, Stretch.first_keep_arg5]

theorem entry_arg6 : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  rw [Stretch.third_keep_arg6, Stretch.call_keep_arg6, Stretch.first_keep_arg6]

theorem entry_arg7 : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  rw [Stretch.third_keep_arg7, Stretch.call_keep_arg7, Stretch.first_keep_arg7]

theorem entry_arg8 : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  rw [Stretch.third_keep_arg8, Stretch.call_keep_arg8, Stretch.first_keep_arg8]

theorem entry_arg9 : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  rw [Stretch.third_keep_arg9, Stretch.call_keep_arg9, Stretch.first_keep_arg9]

theorem entry_arg10 : W3 m ρ c (Proc.devRef .tc main_arg10) = m ((c.tc : Thread nD τ).loc main_arg10) := by
  show StableHlo.after hostOps0_2 (StableHlo.after hostOps0_1 (StableHlo.after hostOps0 (W0 m ρ c))) (Proc.devRef .tc main_arg10) = _
  rw [Stretch.third_keep_arg10, Stretch.call_keep_arg10, Stretch.first_keep_arg10]

/-! ## The whole fold -/

/-- The last contents of the fold at the returned buffer are the network of the launch contents of the arguments. -/
theorem fold_network : W9 m ρ c (Proc.devRef .tc main_v78)
    = Glue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- the decode, over region 2's exit contents
  show StableHlo.after hostOps3 (W8 m ρ c) (Proc.devRef .tc main_v78) = _
  rw [Stretch.last_decode, Fold.exit2_mix, Fold.keep2_arg2]
  -- the second aggregation, over region 1's exit contents
  dsimp only [W7]
  rw [Stretch.narrow_agg, Stretch.narrow_keep_arg2, Stretch.narrow_keep_arg6, Stretch.narrow_keep_v30_1,
    Fold.exit1_second, Fold.keep1_norm, Fold.keep1_src, Fold.keep1_dst, Fold.keep1_arg2, Fold.keep1_arg6, Fold.keep1_branch]
  -- the first aggregation, over region 0's exit contents
  dsimp only [W5]
  rw [Stretch.wide_agg, Stretch.wide_keep_v29, Stretch.wide_keep_v3, Stretch.wide_keep_v6, Stretch.wide_keep_arg2, Stretch.wide_keep_arg4,
    Stretch.wide_keep_arg5, Stretch.wide_keep_arg6, Stretch.wide_keep_v30_1,
    Fold.exit0_first, Fold.exit0_branch, Fold.keep0_norm, Fold.keep0_src, Fold.keep0_dst, Fold.keep0_arg2, Fold.keep0_arg4,
    Fold.keep0_arg5, Fold.keep0_arg6]
  -- region 0's entry contents
  rw [entry_norm, entry_src, entry_dst, entry_arg0, entry_arg2, entry_arg3, entry_arg4, entry_arg5, entry_arg6, entry_arg7, entry_arg8,
    entry_arg9, entry_arg10]
  rfl

/-- From memories that agree on the eleven arguments, the reference's composed term is the last contents of the
    kernel program's fold at its returned buffer: both are the network of the arguments. -/
theorem fold_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Cert.ReferenceIdeal.ValueP.res_main_v98 (F := Ideal) m' c = W9 m ρ c (Proc.devRef .tc main_v78) := by
  rw [Glue.reference_eq, h0, h1, h2, h3, h4, h5, h6, h7, h8, h9, h10]
  exact (fold_network m ρ c).symm

end Cert.KernelIdeal.Bridge

end
-- ==== Proof.lean ====
/-
  The kernel program and its reference compute one function over the extended reals.

  The network: a two-layer graph convolution with symmetric normalization over the message edges and one
  self-loop per node, a two-layer fully connected branch, their half-and-half combination z, and the decode
  ∑_q z(i,q)·z(j,q) over the query edges (i, j). The reference computes every dense stage — x·W₁,
  relu(x·Wf₁ + bf₁)·Wf₂ + bf₂, relu(a + b₁)·W₂, (a + b₂)·½ + f·½ — with whole-array host operations. The kernel
  program computes the same stages in three row-tiled regions, ten blocks of 5000 node rows each, with the
  matrix unit's product into a zero accumulator, and runs the same host operations as the reference for
  everything else (the edge lists with their self-loops, the degrees and their inverse square roots, the two
  gather–scale–scatter aggregations, the decode).

  Each dense stage is row-local: a row of the result is a function of the same row of the row-indexed
  operands. So a block of rows computed alone is that block of the whole stage, the ten blocks cover the
  array, and each region leaves its output array at the whole-array stage of what it found at entry. At the
  extended reals a change of float format is the identity and a product into a zero accumulator is the plain
  sum of products, as is the host's general product. Reading @main's buffer contents stretch by stretch and
  region by region therefore gives, at the returned buffer, the reference's composed term of the eleven
  arguments, operation for operation. No law of arithmetic beyond this is used, and finiteness of the
  inputs is not needed.

  The three frames are the generated frame of each kernel program and the reference's run with its result
  dropped. The idealization rewrote no operation, so its conjunct is trivial.
-/
import proofs.«153928_j65180423684766_2_alg».proof.Defs
import proofs.«153928_j65180423684766_2_alg».proof.Proof.Gen.Kernel
import proofs.«153928_j65180423684766_2_alg».proof.Proof.Gen.Kernel.Skeleton
import proofs.«153928_j65180423684766_2_alg».proof.Proof.Gen.Kernel.Launch
import proofs.«153928_j65180423684766_2_alg».proof.Proof.Gen.Kernel.Points
import proofs.«153928_j65180423684766_2_alg».proof.Proof.Gen.Kernel.Frame
import proofs.«153928_j65180423684766_2_alg».proof.Proof.Gen.KernelIdeal
import proofs.«153928_j65180423684766_2_alg».proof.Proof.Gen.KernelIdeal.Skeleton
import proofs.«153928_j65180423684766_2_alg».proof.Proof.Gen.KernelIdeal.Launch
import proofs.«153928_j65180423684766_2_alg».proof.Proof.Gen.KernelIdeal.Points
import proofs.«153928_j65180423684766_2_alg».proof.Proof.Gen.KernelIdeal.Frame
import proofs.«153928_j65180423684766_2_alg».proof.Proof.Gen.ReferenceIdeal
import proofs.«153928_j65180423684766_2_alg».proof.Proof.Gen.Pre_finite_inputs
import proofs.«153928_j65180423684766_2_alg».proof.Proof.WholeRun
import proofs.«153928_j65180423684766_2_alg».proof.Proof.ReferenceRun
import proofs.«153928_j65180423684766_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, both idealized programs end with the same returned array: the last
    contents of the kernel program's fold at its returned buffer, which is the reference's composed term. -/
theorem algebraic : Cert.algebraic_KernelIdeal_ReferenceIdeal := by
  intro m ρ m' ρ' _ hagree
  refine ⟨fun c => Cert.KernelIdeal.Gen.W9 m ρ c (Proc.devRef .tc Cert.KernelIdeal.main_v78),
    Cert.KernelIdeal.Whole.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  exact Cert.KernelIdeal.Bridge.fold_eq m ρ c m' h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
